-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x256 .f32) (main_arg1 : IVec S1600000 32) (main_arg2 : IVec S1600000 32) (main_arg3 : FVec F S1600000 .f32) (main_arg4 : FVec F S256x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S5000x256 : Shape := ⟨2, ![5000, 256]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩
abbrev S1x64 : Shape := ⟨2, ![1, 64]⟩

abbrev nBuf : Space → Nat
  | .hbm => 24
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  dot_S5000x256_S256x64_S5000x64_1_0_0_1_n_n_wf : DotDims.WF S5000x256 S256x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x64 : Shape := ⟨2, ![256, 64]⟩
abbrev S64 : Shape := ⟨1, ![64]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S256x64, .f32⟩
  | .hbm, ⟨5, _⟩ => ⟨S64, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | .hbm, ⟨26, _⟩ => ⟨S_, .f32⟩
  | .hbm, ⟨27, _⟩ => ⟨S100000x64, .f32⟩
  | .hbm, ⟨28, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.RunResult.lean ====
/-
  The whole program's run, with the result array named.

  The program is two kernel launches with a stretch of host operations between them. Its run is
  followed boundary by boundary: the memory at launch; after the first launch, the same memory
  with that launch's arrays at what its write-backs left; after the host stretch, the host
  operations applied to that; after the second launch, that memory with the second launch's arrays
  at what its write-backs left. Every execution ends, without a fault, with every lasting buffer
  at this last memory: in particular the result array, and each argument array, which no step
  writes and which therefore still holds what it held at launch.
-/
import proofs.«117270_j27513560498274_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with the result array at the last
    boundary's contents and each argument array as launched. -/
theorem run_result : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Hand

end
-- ==== Proof.EdgeStep.lean ====
/-
  The stretch of host operations between the two launches, as one function.

  Between the launches the program takes the mapped rows (the first launch's result), and for each
  of the 1600000 edges reads the row of its source node (a source index below zero counted from the
  end), scales it by the edge's weight, and adds it into the row of its target node of an array
  that starts at zero. Both programs spell this step with the same operations, so it is kept here
  as ONE function `edgeStep` of the mapped rows and the three edge arrays and is never opened:
  all that is used of it is that equal mapped rows give equal results.

  What the second launch finds when it is entered: the aggregated array is `edgeStep` of what the
  first launch left and of the edge arrays as launched; the bias is as launched.
-/
import proofs.«117270_j27513560498274_2_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The edge step: gather each edge's source row, scale it by the edge's weight, add it into its target row. -/
def edgeStep (sup : (⟨S100000x64, .f32⟩ : BufTy).Contents (Elt F))
    (rows cols : (⟨S1600000, .i32⟩ : BufTy).Contents (Elt F))
    (vals : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 rows)
    (mulf (broadcastInDim S1600000x64 ![0, 1] bcast_S1600000x1_S1600000x64_0_1
        (broadcastInDim S1600000x1 ![0] bcast_S1600000_S1600000x1_0 vals))
      (Host.gather gather_S100000x64_S1600000x1_S1600000x64_1_0_n_n_0_1_164 sup
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

variable (m : (ℓ : Loc nD τ sig) → Buf (Elt F) ℓ) (ρ : Dev nD → PrngReg)

/-- The second launch finds the aggregated array at the edge step of what the first launch left. -/
theorem entry_agg (c : Dev nD) :
    W2 m ρ c (Proc.devRef .tc main_v13)
      = edgeStep (W1 m ρ c (Proc.devRef .tc main_v0)) (W1 m ρ c (Proc.devRef .tc main_arg1))
          (W1 m ρ c (Proc.devRef .tc main_arg2)) (W1 m ρ c (Proc.devRef .tc main_arg3)) := by
  show StableHlo.after hostOps1 (W1 m ρ c) (Proc.devRef .tc main_v13) = _
  after_results
  rfl

/-- No host operation writes the bias: the second launch finds it as the first launch left it. -/
theorem entry_bias (c : Dev nD) :
    W2 m ρ c (Proc.devRef .tc main_arg5) = W1 m ρ c (Proc.devRef .tc main_arg5) := by
  show StableHlo.after hostOps1 (W1 m ρ c) (Proc.devRef .tc main_arg5) = _
  after_results

/-- The first launch writes none of the edge arrays and not the bias: they are as launched. -/
theorem exit0_rows (c : Dev nD) : W1 m ρ c (Proc.devRef .tc main_arg1) = m ((c : Thread nD τ).loc main_arg1) :=
  W1_of_ne m ρ c main_arg1 (by decide)
theorem exit0_cols (c : Dev nD) : W1 m ρ c (Proc.devRef .tc main_arg2) = m ((c : Thread nD τ).loc main_arg2) :=
  W1_of_ne m ρ c main_arg2 (by decide)
theorem exit0_vals (c : Dev nD) : W1 m ρ c (Proc.devRef .tc main_arg3) = m ((c : Thread nD τ).loc main_arg3) :=
  W1_of_ne m ρ c main_arg3 (by decide)
theorem exit0_bias (c : Dev nD) : W1 m ρ c (Proc.devRef .tc main_arg5) = m ((c : Thread nD τ).loc main_arg5) :=
  W1_of_ne m ρ c main_arg5 (by decide)

end Cert.KernelIdeal.Hand

end
-- ==== Proof.Spec.lean ====
/-
  The mathematics of the claim, over literal shapes and with no program in sight.

  The layer is a graph convolution: every node's 256 features are mapped to 64 by one matrix,
  each edge carries its source node's mapped row, scaled by the edge's weight, to its target
  node, the contributions arriving at a node are added, a bias row is added to every node and
  negative entries are clipped at zero.

  Two of these steps are written here as whole-array functions, index by index: the matrix
  product (`support`: entry (r, c) is the sum over the 256 shared coordinates k of
  x (r, k) · w (k, c)) and the last step (`biasRelu`: entry (r, c) is the larger of
  agg (r, c) + bias c and zero). The edge step in between is the same text in both programs and
  is carried as one function of the product; it is never opened.
-/
import Idealize.ShloMosaic.PureOps.Ideal
import Idealize.ShloMosaic.Lib.ValueIdx

noncomputable section

namespace Cert.Hand.Spec

open Idealize.ShloMosaic

/-- Entry (r, k) of a 100000 × 256 array, r taken from an index of a 100000 × 64 array. -/
abbrev rowAt (i : (⟨2, ![100000, 64]⟩ : Shape).Idx) (k : Fin 256) : (⟨2, ![100000, 256]⟩ : Shape).Idx := fun a => match a with
  | ⟨0, _⟩ => ⟨(i 0).val, (i 0).isLt⟩
  | ⟨1, _⟩ => ⟨k.val, k.isLt⟩

/-- Entry (k, c) of a 256 × 64 array, c taken from an index of a 100000 × 64 array. -/
abbrev colAt (i : (⟨2, ![100000, 64]⟩ : Shape).Idx) (k : Fin 256) : (⟨2, ![256, 64]⟩ : Shape).Idx := fun a => match a with
  | ⟨0, _⟩ => ⟨k.val, k.isLt⟩
  | ⟨1, _⟩ => ⟨(i 1).val, (i 1).isLt⟩

/-- The bias entry that belongs to column c of an index (r, c). -/
abbrev biasAt (i : (⟨2, ![100000, 64]⟩ : Shape).Idx) : (⟨1, ![64]⟩ : Shape).Idx := fun a => match a with
  | ⟨0, _⟩ => ⟨(i 1).val, (i 1).isLt⟩

/-- The matrix product x · w on the extended reals: entry (r, c) is the sum over k of x (r, k) · w (k, c). -/
def support (x : FVec Ideal ⟨2, ![100000, 256]⟩ .f32) (w : FVec Ideal ⟨2, ![256, 64]⟩ .f32) :
    FVec Ideal ⟨2, ![100000, 64]⟩ .f32 :=
  fun i => ∑ k : Fin 256, x (rowAt i k) * w (colAt i k)

/-- The bias row added to every row, then the larger of that and zero, entry by entry. -/
def biasRelu (agg : FVec Ideal ⟨2, ![100000, 64]⟩ .f32) (bias : FVec Ideal ⟨1, ![64]⟩ .f32) :
    FVec Ideal ⟨2, ![100000, 64]⟩ .f32 :=
  fun i => FloatOps.maximumf (FloatOps.addf (agg i) (bias (biasAt i))) (FloatOps.ofBits .f32 0x00000000#32)

end Cert.Hand.Spec

end
-- ==== Proof.PayMatmul.lean ====
/-
  What the first kernel stores at one entry of its block.

  At a grid point the kernel holds 5000 rows of x (5000 × 256) and the whole of w (256 × 64). It
  narrows both to bf16 — the identity on extended reals — and multiplies them into an accumulator
  that starts at zero. Entry (p, q) of what it stores is therefore the sum over the 256 shared
  coordinates k of xblock (p, k) · w (k, q): the accumulator contributes the extended real 0, and
  the product's one contracted axis is re-indexed by its single coordinate.
-/
import proofs.«117270_j27513560498274_2_alg».proof.Proof.Gen.KernelIdeal.Skeleton
import Idealize.ShloMosaic.Lib.ValueIdx
import Idealize.ShloMosaic.PureOps.Ideal.Laws

noncomputable section

namespace Cert.KernelIdeal.Hand

open Cert.KernelIdeal Cert.KernelIdeal.Gen Idealize.ShloMosaic

/-- Row p of the block of x, at shared coordinate k. -/
abbrev lrow (j : S5000x64.Idx) (k : Fin 256) : S5000x256.Idx := fun a => match a with
  | ⟨0, _⟩ => ⟨(j 0).val, (j 0).isLt⟩
  | ⟨1, _⟩ => ⟨k.val, k.isLt⟩

/-- Column q of w, at shared coordinate k. -/
abbrev rcol (j : S5000x64.Idx) (k : Fin 256) : S256x64.Idx := fun a => match a with
  | ⟨0, _⟩ => ⟨k.val, k.isLt⟩
  | ⟨1, _⟩ => ⟨(j 1).val, (j 1).isLt⟩

/-- The left operand's index keeps the output's row on its free axis. -/
theorem lhs_free (j : S5000x64.Idx) (q : (dot_S5000x256_S256x64_S5000x64_1_0_0_1_n_n).contr.Idx) :
    ((dot_S5000x256_S256x64_S5000x64_1_0_0_1_n_n).lhsIdx j q 0).val = (j 0).val := by
  unfold DotDims.lhsIdx
  rw [dif_neg (show ¬(0 : Fin S5000x256.rank) ∈ (dot_S5000x256_S256x64_S5000x64_1_0_0_1_n_n).lhsBatch by decide),
    dif_pos (show (0 : Fin S5000x256.rank) ∈ (dot_S5000x256_S256x64_S5000x64_1_0_0_1_n_n).lhsNonContracting by decide)]
  rfl

/-- The left operand's contracted axis carries the shared coordinate. -/
theorem lhs_contr (j : S5000x64.Idx) (q : (dot_S5000x256_S256x64_S5000x64_1_0_0_1_n_n).contr.Idx) :
    ((dot_S5000x256_S256x64_S5000x64_1_0_0_1_n_n).lhsIdx j q 1).val = (q ⟨0, by decide⟩).val :=
  (dot_S5000x256_S256x64_S5000x64_1_0_0_1_n_n).lhsIdx_val_of_single rfl j q

/-- The right operand's contracted axis carries the shared coordinate. -/
theorem rhs_contr (j : S5000x64.Idx) (q : (dot_S5000x256_S256x64_S5000x64_1_0_0_1_n_n).contr.Idx) :
    ((dot_S5000x256_S256x64_S5000x64_1_0_0_1_n_n).rhsIdx j q 0).val = (q ⟨0, by decide⟩).val :=
  (dot_S5000x256_S256x64_S5000x64_1_0_0_1_n_n).rhsIdx_val_of_single rfl j q

/-- The right operand's index keeps the output's column on its free axis. -/
theorem rhs_free (j : S5000x64.Idx) (q : (dot_S5000x256_S256x64_S5000x64_1_0_0_1_n_n).contr.Idx) :
    ((dot_S5000x256_S256x64_S5000x64_1_0_0_1_n_n).rhsIdx j q 1).val = (j 1).val := by
  unfold DotDims.rhsIdx
  rw [dif_neg (show ¬(1 : Fin S256x64.rank) ∈ (dot_S5000x256_S256x64_S5000x64_1_0_0_1_n_n).rhsBatch by decide),
    dif_pos (show (1 : Fin S256x64.rank) ∈ (dot_S5000x256_S256x64_S5000x64_1_0_0_1_n_n).rhsNonContracting by decide)]
  rfl

/-- Entry j = (p, q) of what the kernel stores: the sum over k of xblock (p, k) · w (k, q). -/
theorem pay_matmul (x0 : Vec Ideal S5000x256 .f32) (x1 : Vec Ideal S256x64 .f32) (j : S5000x64.Idx) :
    k0_pay1 (F := Ideal) x0 x1 j = ∑ k : Fin 256, x0 (lrow j k) * x1 (rcol j k) := by
  unfold k0_pay1
  simp only [matmul]
  rw [Ideal.matmul_constant_zero_apply,
    ← Equiv.sum_comp (ValueIdx.contrEquiv1 dot_S5000x256_S256x64_S5000x64_1_0_0_1_n_n 256 rfl rfl).symm]
  refine Finset.sum_congr rfl fun k _ => ?_
  have hk := ValueIdx.contrEquiv1_symm_val dot_S5000x256_S256x64_S5000x64_1_0_0_1_n_n 256 rfl rfl k
  have el : (dot_S5000x256_S256x64_S5000x64_1_0_0_1_n_n).lhsIdx j
      ((ValueIdx.contrEquiv1 dot_S5000x256_S256x64_S5000x64_1_0_0_1_n_n 256 rfl rfl).symm k) = lrow j k :=
    funext fun a => Fin.ext (by
      match a with
      | ⟨0, _⟩ => exact lhs_free _ _
      | ⟨1, _⟩ => exact (lhs_contr _ _).trans hk)
  have er : (dot_S5000x256_S256x64_S5000x64_1_0_0_1_n_n).rhsIdx j
      ((ValueIdx.contrEquiv1 dot_S5000x256_S256x64_S5000x64_1_0_0_1_n_n 256 rfl rfl).symm k) = rcol j k :=
    funext fun a => Fin.ext (by
      match a with
      | ⟨0, _⟩ => exact (rhs_contr _ _).trans hk
      | ⟨1, _⟩ => exact rhs_free _ _)
  rw [el, er]
  rfl

end Cert.KernelIdeal.Hand

end
-- ==== Proof.Region0.lean ====
/-
  From the first launch's blocks to its whole result.

  The launch walks 20 grid points. At point t it reads rows 5000 t … 5000 t + 4999 of x and the
  whole of w, and writes back rows 5000 t … 5000 t + 4999 of the result. Entry (p, q) of what it
  writes is the sum over k of xblock (p, k) · w (k, q) (the payload), and xblock (p, k) is
  x (5000 t + p, k): so the block written at t is exactly block t of the matrix product x · w.
  The 20 blocks tile the 100000 rows — row r lies in block r / 5000 — so after the launch the
  result array IS the matrix product of the two arrays the launch found.
-/
import proofs.«117270_j27513560498274_2_alg».proof.Proof.Gen.KernelIdeal.Frame
import proofs.«117270_j27513560498274_2_alg».proof.Proof.Spec
import proofs.«117270_j27513560498274_2_alg».proof.Proof.PayMatmul
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

-- the buffer contents when the launch is entered: a parameter, so that nothing here depends on how they came about
variable (V : (c : Dev nD) → (b : Ref sig .tc) → Buf (Elt Ideal) ((c : Thread nD τ).loc b))

theorem hz2 : (![0, 0] : Fin 2 → Nat) = fun _ => 0 := funext fun a => by fin_cases a <;> rfl

/-- The three windows' block indices at every one of the 20 points: x and the result move down one block of rows per
    point, w stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the arrays the launch found. -/
theorem flushed0 (c : Dev nD) (t : Fin cfg0.N) :
    (dat0 V c).flushed 2 t
      = ((cfg0.win 2).blk t).view.read (Elt Ideal) (Spec.support (V c main_arg0) (V c main_arg4)) := by
  show (cfg0.win 2).cut (grid0.coords t) ((dat0 V c).after 2 t) = _
  rw [after0_2]
  unfold out0_2
  rw [View.canon_unit_zero hz2]
  simp only [View.ld_unit_zero (S := S5000x256) hz2, View.ld_unit_zero (S := S256x64) hz2]
  obtain ⟨e0, e1, e2, e3, e4, e5⟩ := idx0 t
  funext j
  refine (pay_matmul _ _ j).trans ?_
  show _ = Spec.support (V c main_arg0) (V c main_arg4) (((cfg0.win 2).blk t).view.emb j)
  unfold Spec.support
  refine Finset.sum_congr rfl fun k _ => ?_
  have h0 : iblk0 V c 0 t (lrow j k) = V c main_arg0 (Spec.rowAt (((cfg0.win 2).blk t).view.emb j) k) := by
    show V c main_arg0 (((cfg0.win 0).blk t).view.emb (lrow j k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      rw [e0, e4]
    | ⟨1, _⟩ =>
      show win0_0.index t (1 : Fin 2) * 256 + 1 * k.val = k.val
      rw [e1]; omega
  have h1 : iblk0 V c 1 t (rcol j k) = V c main_arg4 (Spec.colAt (((cfg0.win 2).blk t).view.emb j) k) := by
    show V c main_arg4 (((cfg0.win 1).blk t).view.emb (rcol j k)) = _
    refine congrArg (V c main_arg4) (funext fun a => Fin.ext ?_)
    match a with
    | ⟨0, _⟩ =>
      show win0_1.index t (0 : Fin 2) * 256 + 1 * k.val = k.val
      rw [e2]; omega
    | ⟨1, _⟩ =>
      show win0_1.index t (1 : Fin 2) * 64 + 1 * (j 1).val = win0_2.index t (1 : Fin 2) * 64 + 1 * (j 1).val
      rw [e3, e5]
  rw [h0, h1]

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- The 20 blocks tile the array: row r is in the block of point r / 5000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 64 ≤ (i 1).val ∧ (i 1).val < win0_2.index t (1 : Fin 2) * 64 + 64
    rw [e5]; omega

/-- After the launch the result array is the matrix product of the two arrays the launch found. -/
theorem final0 (c : Dev nD) :
    (dat0 V c).arrAt 2 cfg0.N = Spec.support (V c main_arg0) (V c main_arg4) :=
  (dat0 V c).arrAt_eq_of_cover 2 (Spec.support (V c main_arg0) (V c main_arg4)) (fun t _ => flushed0 V c t) cover0

end Cert.KernelIdeal.Hand

end
-- ==== Proof.PayBiasRelu.lean ====
/-
  What the second kernel stores at one entry of its block.

  At a grid point the kernel holds 10000 rows of the aggregated array (10000 × 64) and the whole
  bias (64 entries). It views the bias as one row (1 × 64), repeats that row down the 10000 rows,
  adds, and takes the larger of the sum and zero. Entry (p, q) of what it stores is therefore the
  larger of agg (p, q) + bias q and zero: the one-row view reads the bias at the same position, and
  the repeated row forgets p.
-/
import proofs.«117270_j27513560498274_2_alg».proof.Proof.Gen.KernelIdeal.Skeleton
import Idealize.ShloMosaic.Lib.Pipeline.Value
import Idealize.ShloMosaic.Lib.ValueIdx

noncomputable section

namespace Cert.KernelIdeal.Hand

open Cert.KernelIdeal Cert.KernelIdeal.Gen Idealize.ShloMosaic

variable {F : FTy → Type} [FloatOps F]

/-- The bias entry under column q of a block index (p, q). -/
abbrev bcol (j : S10000x64.Idx) : S64.Idx := fun a => match a with
  | ⟨0, _⟩ => ⟨(j 1).val, (j 1).isLt⟩

/-- The same entry in the one-row view of the bias. -/
abbrev browOne (j : S10000x64.Idx) : S1x64.Idx := fun a => match a with
  | ⟨0, _⟩ => ⟨0, Nat.one_pos⟩
  | ⟨1, _⟩ => ⟨(j 1).val, (j 1).isLt⟩

/-- The bias, viewed as one row and repeated down the rows, reads at (p, q) the bias at q. -/
theorem bias_rows (x1 : Vec F S64 .f32) (h : S64.ShapeCasts S1x64) (h' : S1x64.Broadcasts S10000x64) (j : S10000x64.Idx) :
    broadcastTo S10000x64 (shapeCast S1x64 x1 h) h' j = x1 (bcol j) := by
  refine (broadcastTo_apply _ h' j (browOne j) fun a => ?_).trans ?_
  · match a with
    | ⟨0, _⟩ => show 0 = if (1 : Nat) = 1 then 0 else (j 0).val; rw [if_pos rfl]
    | ⟨1, _⟩ => show (j 1).val = if (64 : Nat) = 1 then 0 else (j 1).val; rw [if_neg (by decide)]
  · refine shapeCast_apply x1 h (browOne j) (bcol j) ?_
    rw [Shape.rowMajor_val_two, Shape.rowMajor_val_one]
    show (j 1).val = 0 * 64 + (j 1).val
    omega

/-- Entry j = (p, q) of what the kernel stores: the larger of agg (p, q) + bias q and zero. -/
theorem pay_biasRelu (x0 : Vec F S10000x64 .f32) (x1 : Vec F S64 .f32) (j : S10000x64.Idx) :
    k1_pay1 (F := F) x0 x1 j
      = FloatOps.maximumf (FloatOps.addf (x0 j) (x1 (bcol j))) (FloatOps.ofBits .f32 0x00000000#32) := by
  unfold k1_pay1
  show FloatOps.maximumf (FloatOps.addf (shapeCast S10000x64 x0 _ j)
    (broadcastTo S10000x64 (shapeCast S1x64 x1 _) _ j)) _ = _
  rw [shapeCast_self, bias_rows]
  rfl

end Cert.KernelIdeal.Hand

end
-- ==== Proof.Region1.lean ====
/-
  From the second launch's blocks to the program's result.

  The launch walks 10 grid points. At point t it reads rows 10000 t … 10000 t + 9999 of the
  aggregated array and the whole bias, and writes back the same rows of the result. Entry (p, q)
  of what it writes is the larger of aggblock (p, q) + bias q and zero (the payload), and
  aggblock (p, q) is agg (10000 t + p, q): so the block written at t is exactly block t of
  "bias added, clipped at zero" applied to the whole aggregated array. The 10 blocks tile the
  100000 rows — row r lies in block r / 10000 — so after the launch the result array IS that
  function of the two arrays the launch found.
-/
import proofs.«117270_j27513560498274_2_alg».proof.Proof.Gen.KernelIdeal.Frame
import proofs.«117270_j27513560498274_2_alg».proof.Proof.Spec
import proofs.«117270_j27513560498274_2_alg».proof.Proof.PayBiasRelu
import Idealize.ShloMosaic.Lib.Pipeline.Value

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

-- the buffer contents when the launch is entered: a parameter, so that nothing here depends on how they came about
variable (V : (c : Dev nD) → (b : Ref sig .tc) → Buf (Elt Ideal) ((c : Thread nD τ).loc b))

theorem hz2' : (![0, 0] : Fin 2 → Nat) = fun _ => 0 := funext fun a => by fin_cases a <;> rfl
theorem hz1' : (![0] : Fin 1 → Nat) = fun _ => 0 := funext fun a => by fin_cases a; rfl

/-- The three windows' block indices at every one of the 10 points: the aggregated array and the result move down
    one block of rows per point, the bias stays. -/
theorem idx1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- What point t writes back is block t of "bias added, clipped at zero" of the arrays the launch found. -/
theorem flushed1 (c : Dev nD) (t : Fin cfg1.N) :
    (dat1 V c).flushed 2 t
      = ((cfg1.win 2).blk t).view.read (Elt Ideal) (Spec.biasRelu (V c main_v13) (V c main_arg5)) := by
  show (cfg1.win 2).cut (grid1.coords t) ((dat1 V c).after 2 t) = _
  rw [after1_2]
  unfold out1_2
  rw [View.canon_unit_zero hz2']
  simp only [View.ld_unit_zero (S := S10000x64) hz2', View.ld_unit_zero (S := S64) hz1']
  obtain ⟨e0, e1, e2, e3, e4⟩ := idx1 t
  funext j
  refine (pay_biasRelu _ _ j).trans ?_
  show _ = Spec.biasRelu (V c main_v13) (V c main_arg5) (((cfg1.win 2).blk t).view.emb j)
  unfold Spec.biasRelu
  have h0 : iblk1 V c 0 t j = V c main_v13 (((cfg1.win 2).blk t).view.emb j) := by
    show V c main_v13 (((cfg1.win 0).blk t).view.emb j) = _
    refine congrArg (V c main_v13) (funext fun a => Fin.ext ?_)
    match a with
    | ⟨0, _⟩ =>
      show win1_0.index t (0 : Fin 2) * 10000 + 1 * (j 0).val = win1_2.index t (0 : Fin 2) * 10000 + 1 * (j 0).val
      rw [e0, e3]
    | ⟨1, _⟩ =>
      show win1_0.index t (1 : Fin 2) * 64 + 1 * (j 1).val = win1_2.index t (1 : Fin 2) * 64 + 1 * (j 1).val
      rw [e1, e4]
  have h1 : iblk1 V c 1 t (bcol j) = V c main_arg5 (Spec.biasAt (((cfg1.win 2).blk t).view.emb j)) := by
    show V c main_arg5 (((cfg1.win 1).blk t).view.emb (bcol j)) = _
    refine congrArg (V c main_arg5) (funext fun a => Fin.ext ?_)
    match a with
    | ⟨0, _⟩ =>
      show win1_1.index t (0 : Fin 1) * 64 + 1 * (j 1).val = win1_2.index t (1 : Fin 2) * 64 + 1 * (j 1).val
      rw [e2, e4]
  rw [h0, h1]

/-- An index of the result array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v14).slice (win1_2.rect t)).set ↔ _
  rw [View.set_slice_whole, Rect.mem_set_unit]
  exact Iff.rfl

/-- The 10 blocks tile the array: row r is in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, e3, e4⟩ := idx1 t
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    rw [e3, ht]; omega
  | ⟨1, _⟩ =>
    show win1_2.index t (1 : Fin 2) * 64 ≤ (i 1).val ∧ (i 1).val < win1_2.index t (1 : Fin 2) * 64 + 64
    rw [e4]; omega

/-- After the launch the result array is "bias added, clipped at zero" of the two arrays the launch found. -/
theorem final1 (c : Dev nD) :
    (dat1 V c).arrAt 2 cfg1.N = Spec.biasRelu (V c main_v13) (V c main_arg5) :=
  (dat1 V c).arrAt_eq_of_cover 2 (Spec.biasRelu (V c main_v13) (V c main_arg5)) (fun t _ => flushed1 V c t) cover1

end Cert.KernelIdeal.Hand

end
-- ==== Proof.KernelValue.lean ====
/-
  The kernel program's result, as one function of the arguments.

  Read back from the end. The result array is what the second launch left: "bias added, clipped at
  zero" of the aggregated array and the bias it found. The aggregated array it found is the edge
  step of what the first launch left and of the edge arrays, which nothing has written; the bias
  it found is the bias as launched. What the first launch left is the matrix product of x and w as
  launched. So every execution ends with the result array at

      biasRelu (edgeStep (x · w) rows cols vals) bias

  of the argument arrays, and with the argument arrays unchanged.
-/
import proofs.«117270_j27513560498274_2_alg».proof.Proof.RunResult
import proofs.«117270_j27513560498274_2_alg».proof.Proof.EdgeStep
import proofs.«117270_j27513560498274_2_alg».proof.Proof.Region0
import proofs.«117270_j27513560498274_2_alg».proof.Proof.Region1

set_option maxRecDepth 16384

noncomputable section

namespace Cert.KernelIdeal.Hand

open Cert.KernelIdeal Cert.KernelIdeal.Gen Cert.Hand
open Idealize.ShloMosaic Idealize.ShloMosaic.TcCoe Idealize.SL.Sem

variable (m : (ℓ : Loc nD τ sig) → Buf (Elt Ideal) ℓ) (ρ : Dev nD → PrngReg)

/-- The program's result as a function of its six argument arrays. -/
abbrev result (c : Dev nD) : Buf (Elt Ideal) ((c.tc : Thread nD τ).loc main_v14) :=
  Spec.biasRelu
    (edgeStep (Spec.support (m ((c.tc : Thread nD τ).loc main_arg0)) (m ((c.tc : Thread nD τ).loc main_arg4)))
      (m ((c.tc : Thread nD τ).loc main_arg1)) (m ((c.tc : Thread nD τ).loc main_arg2)) (m ((c.tc : Thread nD τ).loc main_arg3)))
    (m ((c.tc : Thread nD τ).loc main_arg5))

/-- What the first launch leaves in its result array: the matrix product of x and w as launched. -/
theorem exit0_product (c : Dev nD) :
    W1 m ρ c (Proc.devRef .tc main_v0)
      = Spec.support (m ((c.tc : Thread nD τ).loc main_arg0)) (m ((c.tc : Thread nD τ).loc main_arg4)) :=
  (W1_arr m ρ c 2).trans (final0 (V0 m ρ) c)

/-- The last boundary's contents at the result array, read back to the arguments. -/
theorem value (c : Dev nD) : W3 m ρ c (Proc.devRef .tc main_v14) = result m c :=
  (W3_arr m ρ c 2).trans ((final1 (V2 m ρ) c).trans (by
    show Spec.biasRelu (W2 m ρ c (Proc.devRef .tc main_v13)) (W2 m ρ c (Proc.devRef .tc main_arg5)) = _
    rw [entry_agg, entry_bias, exit0_bias, exit0_rows, exit0_cols, exit0_vals, exit0_product]))

/-- Every weakly fair execution ends, nothing faulting, with the result array at `result` of the arguments and the
    arguments unchanged. -/
theorem run : θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (run_result m ρ)

end Cert.KernelIdeal.Hand

end
-- ==== Proof.RefValue.lean ====
/-
  The reference's result, as the same function of the arguments.

  The reference multiplies x by w on the host, applies the edge step to the product, adds the
  bias — repeated down the rows through a one-row view — and takes the larger of the sum and zero.
  Read at an index: the host product at (r, c) is the sum over the 256 shared coordinates k of
  x (r, k) · w (k, c), which is `support`; the bias read through its two repetitions at (r, c) is
  the bias at c; so the whole result is `biasRelu` of the edge step of `support`.
-/
import proofs.«117270_j27513560498274_2_alg».proof.Proof.Gen.ReferenceIdeal.Read
import proofs.«117270_j27513560498274_2_alg».proof.Proof.Spec

noncomputable section

namespace Cert.ReferenceIdeal.Hand

open Cert.ReferenceIdeal Cert.ReferenceIdeal.Gen Cert.ReferenceIdeal.Read Cert.Hand
open Idealize.ShloMosaic

variable {F : FTy → Type} [FloatOps F]

/-- The edge step as the reference spells it: gather each edge's source row, scale it by the edge's weight, add it
    into its target row. One function of the mapped rows and the three edge arrays; never opened. -/
def edgeStep (sup : (⟨S100000x64, .f32⟩ : BufTy).Contents (Elt F))
    (rows cols : (⟨S1600000, .i32⟩ : BufTy).Contents (Elt F))
    (vals : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 rows)
    (mulf (broadcastInDim S1600000x64 ![0, 1] bcast_S1600000x1_S1600000x64_0_1
        (broadcastInDim S1600000x1 ![0] bcast_S1600000_S1600000x1_0 vals))
      (Host.gather gather_S100000x64_S1600000x1_S1600000x64_1_0_n_n_0_1_164 sup
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

/-- The host product is the matrix product: at (r, c) the sum over k of x (r, k) · w (k, c). -/
theorem product_eq (x0 : (⟨S100000x256, .f32⟩ : BufTy).Contents (Elt Ideal)) (x4 : (⟨S256x64, .f32⟩ : BufTy).Contents (Elt Ideal)) :
    val_main_v0 (F := Ideal) x0 x4 = Spec.support x0 x4 := by
  funext i
  rw [val_main_v0_apply]
  unfold Spec.support
  refine Finset.sum_congr rfl fun k _ => ?_
  have el : lidx_main_v0 i k = Spec.rowAt i k := funext fun a => by
    match a with
    | ⟨0, _⟩ => rfl
    | ⟨1, _⟩ => rfl
  have er : ridx_main_v0 i k = Spec.colAt i k := funext fun a => by
    match a with
    | ⟨0, _⟩ => rfl
    | ⟨1, _⟩ => rfl
  rw [el, er]

/-- The aggregated array is the edge step of the host product. -/
theorem agg_eq (x0 : (⟨S100000x256, .f32⟩ : BufTy).Contents (Elt F)) (x1 x2 : (⟨S1600000, .i32⟩ : BufTy).Contents (Elt F))
    (x3 : (⟨S1600000, .f32⟩ : BufTy).Contents (Elt F)) (x4 : (⟨S256x64, .f32⟩ : BufTy).Contents (Elt F)) :
    val_main_v13 (F := F) x0 x1 x2 x3 x4 = edgeStep (val_main_v0 (F := F) x0 x4) x1 x2 x3 := rfl

/-- The reference's result is "bias added, clipped at zero" of the edge step of the matrix product. -/
theorem result_eq (x0 : (⟨S100000x256, .f32⟩ : BufTy).Contents (Elt Ideal)) (x1 x2 : (⟨S1600000, .i32⟩ : BufTy).Contents (Elt Ideal))
    (x3 : (⟨S1600000, .f32⟩ : BufTy).Contents (Elt Ideal)) (x4 : (⟨S256x64, .f32⟩ : BufTy).Contents (Elt Ideal))
    (x5 : (⟨S64, .f32⟩ : BufTy).Contents (Elt Ideal)) :
    val_main_v17 (F := Ideal) x0 x1 x2 x3 x4 x5 = Spec.biasRelu (edgeStep (Spec.support x0 x4) x1 x2 x3) x5 := by
  funext i
  rw [val_main_v17_apply, val_main_v16_apply, val_main_call0_v0_apply, val_main_call0_cst_apply, val_main_v15_apply,
    val_main_v14_apply, agg_eq, product_eq]
  unfold Spec.biasRelu
  have eb : idx_main_v14 (idx_main_v15 i) = Spec.biasAt i := funext fun a => by
    match a with
    | ⟨0, _⟩ => rfl
  rw [eb]

end Cert.ReferenceIdeal.Hand

end
-- ==== Proof.lean ====
/-
  A graph-convolution layer on a TPU against its plain reference, equal on the extended reals.

  Both programs compute, for 100000 nodes with 256 features, 1600000 weighted edges, a 256 × 64
  matrix w and a bias of 64 entries,

      relu (segment_sum (vals · (x · w)[cols], rows) + bias).

  The kernel program does the matrix product in one launch (20 blocks of 5000 rows, operands
  narrowed to bf16 — the identity on extended reals — accumulated from zero), the gather, scaling
  and scatter-add on the host, and "add the bias, clip at zero" in a second launch (10 blocks of
  10000 rows). The reference does everything on the host.

  Why they agree, entry by entry: a block product accumulated from zero and the host's product are
  the same finite sum of products over the 256 shared coordinates (addition of extended reals is
  commutative and associative, so a sum over a finite index set has one value; no cancellation or
  distribution is used, hence no finiteness of the inputs); the blocks of each launch tile its
  array; the edge step is the same function in both programs and is applied to equal products; the
  kernel's one-row view of the bias and the reference's two repetitions both read the bias at the
  entry's column; and both clip against the same zero.

  The three frames come from the generated frame proofs and the reference's generated run; the
  idealization rewrote no operation, so `preserves` is trivial.
-/
import proofs.«117270_j27513560498274_2_alg».proof.Defs
import proofs.«117270_j27513560498274_2_alg».proof.Proof.Gen.Kernel
import proofs.«117270_j27513560498274_2_alg».proof.Proof.Gen.Kernel.Frame
import proofs.«117270_j27513560498274_2_alg».proof.Proof.Gen.KernelIdeal
import proofs.«117270_j27513560498274_2_alg».proof.Proof.Gen.KernelIdeal.Frame
import proofs.«117270_j27513560498274_2_alg».proof.Proof.Gen.ReferenceIdeal
import proofs.«117270_j27513560498274_2_alg».proof.Proof.Gen.ReferenceIdeal.Run
import proofs.«117270_j27513560498274_2_alg».proof.Proof.Gen.ReferenceIdeal.Read
import proofs.«117270_j27513560498274_2_alg».proof.Proof.Gen.Pre_finite_inputs
import proofs.«117270_j27513560498274_2_alg».proof.Proof.KernelValue
import proofs.«117270_j27513560498274_2_alg».proof.Proof.RefValue
import Idealize.ShloMosaic.Adequacy
import Idealize.ShloMosaic.Init

noncomputable section

namespace Cert.Proof

open Idealize.ShloMosaic Idealize.SL.Sem

/-- The edge step is one function: the two programs spell it with the same operations, the same constants and the
    same gather and scatter layouts. -/
theorem edgeStep_same :
    Cert.ReferenceIdeal.Hand.edgeStep (F := Ideal) = Cert.KernelIdeal.Hand.edgeStep (F := Ideal) := rfl

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both programs end with the result array at
    `biasRelu (edgeStep (x · w) rows cols vals) bias` of those arguments. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5, Cert.ReferenceIdeal.Read.val_main_v17_eq, Cert.ReferenceIdeal.Hand.result_eq,
    edgeStep_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
